-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v10) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x128 : Shape := ⟨2, ![8192, 128]⟩
abbrev S64x8192x128 : Shape := ⟨3, ![64, 8192, 128]⟩
abbrev S128x128 : Shape := ⟨2, ![128, 128]⟩
abbrev S_ : Shape := ⟨0, ![]⟩

class Facts : Prop where
  bcast_S_S8192x128 : S_.BroadcastsInDim S8192x128 (![] : Fin 0 → Fin S8192x128.rank)
  reducesTo_S8192x128_S_d0_1 : S8192x128.ReducesTo [0, 1] S_
  h_S_ : 0 < S_.numel
  bcast_S_S64x8192x128 : S_.BroadcastsInDim S64x8192x128 (![] : Fin 0 → Fin S64x8192x128.rank)
  reducesTo_S64x8192x128_S_d0_1_2 : S64x8192x128.ReducesTo [0, 1, 2] S_
  bcast_S_S128x128 : S_.BroadcastsInDim S128x128 (![] : Fin 0 → Fin S128x128.rank)
  reducesTo_S128x128_S_d0_1 : S128x128.ReducesTo [0, 1] S_

variable [Facts]

def fn_part1 {F : FTy → Type} [FloatOps F] (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  main_v18

def fn {F : FTy → Type} [FloatOps F] (main_arg0 : FVec F S8192x128 .f32) (main_arg1 : FVec F S64x8192x128 .f32) (main_arg2 : FVec F S128x128 .f32) (main_arg3 : FVec F S128x128 .f32) : IVec S_ 1 :=
  let main_v0 : FVec F S8192x128 .f32 := Host.absf main_arg0
  let main_cst : FVec F S_ .f32 := constant S_ .f32 0x7F800000#32
  let main_v1 : FVec F S8192x128 .f32 := broadcastInDim S8192x128 ![] bcast_S_S8192x128 main_cst
  let main_v2 : IVec S8192x128 1 := cmpf .olt main_v0 main_v1
  let main_c : IVec S_ 1 := constantI S_ 1 1#1
  let main_v3 : IVec S_ 1 := (fun x v => Host.reduce IntOp.andi x v reducesTo_S8192x128_S_d0_1 h_S_) main_v2 main_c
  let main_v4 : FVec F S64x8192x128 .f32 := Host.absf main_arg1
  let main_cst_0 : FVec F S_ .f32 := constant S_ .f32 0x7F800000#32
  let main_v5 : FVec F S64x8192x128 .f32 := broadcastInDim S64x8192x128 ![] bcast_S_S64x8192x128 main_cst_0
  let main_v6 : IVec S64x8192x128 1 := cmpf .olt main_v4 main_v5
  let main_c_1 : IVec S_ 1 := constantI S_ 1 1#1
  let main_v7 : IVec S_ 1 := (fun x v => Host.reduce IntOp.andi x v reducesTo_S64x8192x128_S_d0_1_2 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128x128 .f32 := Host.absf main_arg3
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_v13 main_v16
-- ==== Kernel.lean ====
abbrev S8192x128 : Shape := ⟨2, ![8192, 128]⟩
abbrev S64x8192x128 : Shape := ⟨3, ![64, 8192, 128]⟩
abbrev S128x128 : Shape := ⟨2, ![128, 128]⟩
abbrev S512x128 : Shape := ⟨2, ![512, 128]⟩
abbrev S64x512x128 : Shape := ⟨3, ![64, 512, 128]⟩

abbrev nBuf : Space → Nat
  | .hbm => 7
  | .vmem => 8
  | .smem => 0
  | _ => 0

abbrev bufTy : (tb : Table) → Fin (tcTables nBuf tb) → BufTy
  | .hbm, ⟨0, _⟩ => ⟨S8192x128, .f32⟩
  | .hbm, ⟨1, _⟩ => ⟨S64x8192x128, .f32⟩
  | .hbm, ⟨2, _⟩ => ⟨S128x128, .f32⟩
  | .hbm, ⟨3, _⟩ => ⟨S128x128, .f32⟩
  | .hbm, ⟨4, _⟩ => ⟨S128x128, .f32⟩
  | .hbm, ⟨5, _⟩ => ⟨S128x128, .f32⟩
  | .hbm, ⟨6, _⟩ => ⟨S8192x128, .f32⟩
  | .local _ .vmem, ⟨0, _⟩ => ⟨S512x128, .f32⟩
  | .local _ .vmem, ⟨1, _⟩ => ⟨S512x128, .f32⟩
  | .local _ .vmem, ⟨2, _⟩ => ⟨S64x512x128, .f32⟩
  | .local _ .vmem, ⟨3, _⟩ => ⟨S64x512x128, .f32⟩
  | .local _ .vmem, ⟨4, _⟩ => ⟨S128x128, .f32⟩
  | .local _ .vmem, ⟨5, _⟩ => ⟨S128x128, .f32⟩
  | .local _ .vmem, ⟨6, _⟩ => ⟨S512x128, .f32⟩
  | .local _ .vmem, ⟨7, _⟩ => ⟨S512x128, .f32⟩
  | _, _ => ⟨S8192x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x512x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  transposes_S128x128_S128x128_1_0 : S128x128.Transposes [1, 0] S128x128
  inb_S64x512x128_S64x512x128_0_0_0 : ∀ a, (![0, 0, 0] : Fin 3 → Nat) a + S64x512x128.size a ≤ S64x512x128.size a
  h_S64x512x128 : 0 < S64x512x128.numel
  reduces_S64x512x128_S512x128 : S64x512x128.Reduces [0] S512x128
  inb_S512x128_S512x128_0_0 : ∀ a, (![0, 0] : Fin 2 → Nat) a + S512x128.size a ≤ S512x128.size a
  h_S512x128 : 0 < S512x128.numel
  inb_S128x128_S128x128_0_0 : ∀ a, (![0, 0] : Fin 2 → Nat) a + S128x128.size a ≤ S128x128.size a
  h_S128x128 : 0 < S128x128.numel
  shapeCasts_S128x128_S128x128 : S128x128.ShapeCasts S128x128
  dot_S512x128_S128x128_S512x128_1_0_0_1_n_n_wf : DotDims.WF S512x128 S128x128 S512x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x128.size a ≤ S8192x128.size a
  hwx0_0 : ∀ i : grid0.Coords, EltTy.bits .f32 = 32 ∨ (Rect.block (s := S8192x128) S512x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S64x512x128.size a ≤ S64x8192x128.size a
  hwx0_1 : ∀ i : grid0.Coords, EltTy.bits .f32 = 32 ∨ (Rect.block (s := S64x8192x128) S64x512x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S512x128.size a ≤ S8192x128.size a
  hwx0_4 : ∀ i : grid0.Coords, EltTy.bits .f32 = 32 ∨ (Rect.block (s := S8192x128) S512x128.size (cc0_transform_4 i) (hinb0_4 i)).WholeWords (EltTy.packing .f32)

variable [Facts₀]

def dot_S512x128_S128x128_S512x128_1_0_0_1_n_n : DotDims S512x128 S128x128 S512x128 where
  lhsContracting := [1]
  rhsContracting := [0]
  lhsNonContracting := [0]
  rhsNonContracting := [1]
  lhsBatch := []
  rhsBatch := []
  wf := dot_S512x128_S128x128_S512x128_1_0_0_1_n_n_wf

abbrev win0_0 : Pipeline.Window sig grid0 :=
  Pipeline.Window.ofSpec (Memref.whole main_arg0) S512x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S64x512x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v2) S512x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S8192x128 : Shape := ⟨2, ![8192, 128]⟩
abbrev S64x8192x128 : Shape := ⟨3, ![64, 8192, 128]⟩
abbrev S128x128 : Shape := ⟨2, ![128, 128]⟩
abbrev S_ : Shape := ⟨0, ![]⟩

abbrev nBuf : Space → Nat
  | .hbm => 18
  | .vmem => 0
  | .smem => 0
  | _ => 0

abbrev bufTy : (tb : Table) → Fin (tcTables nBuf tb) → BufTy
  | .hbm, ⟨0, _⟩ => ⟨S8192x128, .f32⟩
  | .hbm, ⟨1, _⟩ => ⟨S64x8192x128, .f32⟩
  | .hbm, ⟨2, _⟩ => ⟨S128x128, .f32⟩
  | .hbm, ⟨3, _⟩ => ⟨S128x128, .f32⟩
  | .hbm, ⟨4, _⟩ => ⟨S_, .f32⟩
  | .hbm, ⟨5, _⟩ => ⟨S8192x128, .f32⟩
  | .hbm, ⟨6, _⟩ => ⟨S8192x128, .f32⟩
  | .hbm, ⟨7, _⟩ => ⟨S8192x128, .f32⟩
  | .hbm, ⟨8, _⟩ => ⟨S8192x128, .f32⟩
  | .hbm, ⟨9, _⟩ => ⟨S8192x128, .f32⟩
  | .hbm, ⟨10, _⟩ => ⟨S8192x128, .f32⟩
  | .hbm, ⟨11, _⟩ => ⟨S_, .f32⟩
  | .hbm, ⟨12, _⟩ => ⟨S8192x128, .f32⟩
  | .hbm, ⟨13, _⟩ => ⟨S8192x128, .i1⟩
  | .hbm, ⟨14, _⟩ => ⟨S_, .f32⟩
  | .hbm, ⟨15, _⟩ => ⟨S8192x128, .f32⟩
  | .hbm, ⟨16, _⟩ => ⟨S8192x128, .f32⟩
  | .hbm, ⟨17, _⟩ => ⟨S8192x128, .f32⟩
  | _, _ => ⟨S8192x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩

abbrev nD : Nat := 1
abbrev τ : Topo := Topo.v7x

variable {F : FTy → Type} [FloatOps F]

class Facts₀ : Prop where
  reducesTo_S64x8192x128_S8192x128_d0 : S64x8192x128.ReducesTo [0] S8192x128
  h_S_ : 0 < S_.numel
  bcast_S_S8192x128 : S_.BroadcastsInDim S8192x128 (![] : Fin 0 → Fin S8192x128.rank)
  dot_S8192x128_S128x128_S8192x128_1_1_0_0_n_n_wf : DotDims.WF S8192x128 S128x128 S8192x128 [1] [1] [0] [0] [] []

variable [Facts₀]

def dot_S8192x128_S128x128_S8192x128_1_1_0_0_n_n : DotDims S8192x128 S128x128 S8192x128 where
  lhsContracting := [1]
  rhsContracting := [1]
  lhsNonContracting := [0]
  rhsNonContracting := [0]
  lhsBatch := []
  rhsBatch := []
  wf := dot_S8192x128_S128x128_S8192x128_1_1_0_0_n_n_wf

class Facts : Prop extends Facts₀ where

variable [Facts]
-- ==== Proof.Spec.lean ====
/-
  The function both programs compute, on the extended reals, written over the argument arrays index by index.

  With e1 : [8192,128], e2 : [64,8192,128], W1, W2 : [128,128] (rows are output features):
    s[b,d]   = Σ_n e2[n,b,d]                                   the neighbours' sum
    lin[b,o] = Σ_d (e1[b,d] + s[b,d]) · W1[o,d]  +  Σ_d (e1[b,d] · s[b,d]) · W2[o,d]
    out[b,o] = lin[b,o] if lin[b,o] > 0, else 0.01f · lin[b,o]  (the leaky rectifier, the slope the f32 nearest 1/100)
  The comparison and the selection are kept as the instance's own operations: both programs apply the same two, to the
  same literal words, so nothing about them is needed beyond their being functions.
-/
import Idealize.ShloMosaic.PureOps.Ideal
import Idealize.ShloMosaic.PureOps.Ideal.Laws
import Idealize.ShloMosaic.Lib.ValueIdx

noncomputable section

open scoped BigOperators

namespace Cert.Spec

open Idealize.ShloMosaic Idealize.ShloMosaic.ValueIdx

/-- The neighbours' sum at row `b`, feature `d`: the 64 slices of `e2` added. -/
def nbrSum (e2 : (⟨3, ![64, 8192, 128]⟩ : Shape).Idx → EReal) (b : Fin 8192) (d : Fin 128) : EReal :=
  ∑ n : Fin 64, e2 (ix3 n b d)

/-- The pre-activation at row `b`, output feature `o`: the two linear maps, of `e1 + s` by `W1` and of `e1 · s` by `W2`,
    each row of a weight matrix an output feature, added. -/
def lin (e1 : (⟨2, ![8192, 128]⟩ : Shape).Idx → EReal) (e2 : (⟨3, ![64, 8192, 128]⟩ : Shape).Idx → EReal)
    (w1 w2 : (⟨2, ![128, 128]⟩ : Shape).Idx → EReal) (b : Fin 8192) (o : Fin 128) : EReal :=
  (∑ d : Fin 128, (e1 (ix2 b d) + nbrSum e2 b d) * w1 (ix2 o d))
    + ∑ d : Fin 128, (e1 (ix2 b d) * nbrSum e2 b d) * w2 (ix2 o d)

/-- The leaky rectifier as both programs spell it: `x` where `x > 0`, else the slope's word times `x`. -/
def leaky (x : EReal) : EReal :=
  Scalar.select (FloatOps.cmpf (F := Ideal) (φ := .f32) .ogt x (Ideal.ofBits .f32 0x00000000#32)) x
    (Ideal.ofBits .f32 0x3C23D70A#32 * x)

/-- The result array as one function of the argument arrays. -/
def G (e1 : (⟨2, ![8192, 128]⟩ : Shape).Idx → EReal) (e2 : (⟨3, ![64, 8192, 128]⟩ : Shape).Idx → EReal)
    (w1 w2 : (⟨2, ![128, 128]⟩ : Shape).Idx → EReal) : (⟨2, ![8192, 128]⟩ : Shape).Idx → EReal :=
  fun i => leaky (lin e1 e2 w1 w2 (i 0) (i 1))

end Cert.Spec

end
-- ==== Proof.RefSpec.lean ====
/-
  The reference's result, read one operation at a time, is the specification `Cert.Spec.G` of its four arguments.

  Its `reduce add` over the leading axis from the zero word is `0 + Σ_n e2[n,b,d]`; each `dot_general` contracts axis 1 of
  its left operand with axis 1 of the weight matrix, so its element (b, o) is `Σ_d l[b,d] · W[o,d]`; the comparison, the
  product by the slope and the selection are pointwise.
-/
import proofs.«124865_j81003083203131_1_alg».proof.Proof.Gen.ReferenceIdeal.Read
import proofs.«124865_j81003083203131_1_alg».proof.Proof.Spec

noncomputable section

open scoped BigOperators

namespace Cert.RefSpec

open Cert.ReferenceIdeal Cert.ReferenceIdeal.Read Idealize.ShloMosaic Idealize.ShloMosaic.ValueIdx Cert.Spec

/-- The left operand of either contraction is read at (row of the output, contraction index). -/
theorem lidx2_eq (b : Fin 8192) (o k : Fin 128) : lidx_main_v2 (ix2 b o) k = ix2 b k :=
  funext fun a => by match a with | ⟨0, _⟩ => rfl | ⟨1, _⟩ => rfl
theorem lidx4_eq (b : Fin 8192) (o k : Fin 128) : lidx_main_v4 (ix2 b o) k = ix2 b k :=
  funext fun a => by match a with | ⟨0, _⟩ => rfl | ⟨1, _⟩ => rfl
/-- The weight matrix is read at (column of the output, contraction index): its rows are the output features. -/
theorem ridx2_eq (b : Fin 8192) (o k : Fin 128) : ridx_main_v2 (ix2 b o) k = ix2 o k :=
  funext fun a => by match a with | ⟨0, _⟩ => rfl | ⟨1, _⟩ => rfl
theorem ridx4_eq (b : Fin 8192) (o k : Fin 128) : ridx_main_v4 (ix2 b o) k = ix2 o k :=
  funext fun a => by match a with | ⟨0, _⟩ => rfl | ⟨1, _⟩ => rfl
/-- The summed axis of `e2` is its leading one. -/
theorem idx0_eq (b : Fin 8192) (d : Fin 128) (n : Fin 64) : idx_main_v0 (ix2 b d) n = ix3 n b d :=
  funext fun a => by match a with | ⟨0, _⟩ => rfl | ⟨1, _⟩ => rfl | ⟨2, _⟩ => rfl

/-- The neighbours' sum as the reference takes it: from the zero word. -/
theorem v0_apply (x1 : S64x8192x128.Idx → EReal) (b : Fin 8192) (d : Fin 128) :
    val_main_v0 (F := Ideal) x1 (ix2 b d) = nbrSum x1 b d := by
  rw [val_main_v0_apply, val_main_cst_apply]
  simp only [idx0_eq, Ideal.ofBits_def, Ideal.ofBits_zero_f32, zero_add]
  rfl

/-- The reference's result is `G` of its arguments, index by index. -/
theorem result_eq (x0 : S8192x128.Idx → EReal) (x1 : S64x8192x128.Idx → EReal) (x2 x3 : S128x128.Idx → EReal) :
    val_main_v10 (F := Ideal) x0 x1 x2 x3 = G x0 x1 x2 x3 := by
  funext i
  obtain ⟨b, o, rfl⟩ : ∃ (b : Fin 8192) (o : Fin 128), i = ix2 b o := ⟨i 0, i 1, eq_ix2 i⟩
  rw [val_main_v10_apply, val_main_v7_apply, val_main_v9_apply, val_main_v8_apply, val_main_v6_apply,
    val_main_cst_1_apply, val_main_cst_0_apply, val_main_v5_apply, val_main_v2_apply, val_main_v4_apply]
  simp only [lidx2_eq, lidx4_eq, ridx2_eq, ridx4_eq, val_main_v1_apply, val_main_v3_apply, v0_apply,
    Ideal.addf_def, Ideal.mulf_def, Ideal.ofBits_def]
  rfl

end Cert.RefSpec

end
-- ==== Proof.Payload.lean ====
/-
  The kernel body's stored value, read at one element of the output block.

  At a grid point the body holds a [512,128] block `x0` of e1, the [64,512,128] block `x1` of e2 with the same 512 rows, and
  the two whole [128,128] transposed weight matrices `x2`, `x3` (rows are input features). Its value at (p, q) is the leaky
  rectifier of
      Σ_d (x0[p,d] + Σ_n x1[n,p,d]) · x2[d,q]  +  Σ_d (x0[p,d] · Σ_n x1[n,p,d]) · x3[d,q] :
  the reduction over the leading axis from the neutral word is the plain sum over n, each matrix product into the zero
  accumulator contracts axis 1 of its left operand with axis 0 of the weights, and the rest is pointwise.
-/
import proofs.«124865_j81003083203131_1_alg».proof.Proof.Gen.KernelIdeal.Skeleton
import proofs.«124865_j81003083203131_1_alg».proof.Proof.Spec
import Idealize.ShloMosaic.PureOps.Ideal.Laws
import Idealize.ShloMosaic.Lib.ValueIdx
import Idealize.ShloMosaic.Lib.Pipeline.Value

noncomputable section

open scoped BigOperators

namespace Cert.KernelIdeal.Body

open Cert.KernelIdeal Cert.KernelIdeal.Gen Idealize.ShloMosaic Idealize.ShloMosaic.ValueIdx Cert.Spec

/-- The block's neighbour sum at (p, d). -/
def blockSum (x1 : FVec Ideal S64x512x128 .f32) (p : Fin 512) (d : Fin 128) : EReal := ∑ n : Fin 64, x1 (ix3 n p d)

/-- The block's pre-activation at (p, q), the weights read transposed. -/
def blockLin (x0 : FVec Ideal S512x128 .f32) (x1 : FVec Ideal S64x512x128 .f32) (x2 x3 : FVec Ideal S128x128 .f32)
    (p : Fin 512) (q : Fin 128) : EReal :=
  (∑ d : Fin 128, (x0 (ix2 p d) + blockSum x1 p d) * x2 (ix2 d q))
    + ∑ d : Fin 128, (x0 (ix2 p d) * blockSum x1 p d) * x3 (ix2 d q)

/-- The reduction over the leading axis, from the neutral word: the sum of the 64 slices. -/
theorem reduce_apply (x1 : FVec Ideal S64x512x128 .f32) (h : S64x512x128.Reduces [0] S512x128) (hφ : FKind.Formats .f32)
    (hacc : (0x00000000#32 : BitVec 32) = FKind.add.neutral .f32 hφ) (p : Fin 512) (d : Fin 128) :
    multiReduction .add [0] S512x128 x1 0x00000000#32 h hφ hacc (ix2 p d) = blockSum x1 p d := by
  refine (Ideal.multiReduction_add_single x1 0x00000000#32 h hφ hacc (ix2 p d)).trans ?_
  exact Finset.sum_congr rfl fun n _ => congrArg x1 (funext fun a => Fin.ext (by
    match a with | ⟨0, _⟩ => rfl | ⟨1, _⟩ => rfl | ⟨2, _⟩ => rfl))

theorem lhs_row (i : S512x128.Idx) (k : dot_S512x128_S128x128_S512x128_1_0_0_1_n_n.contr.Idx) :
    (dot_S512x128_S128x128_S512x128_1_0_0_1_n_n.lhsIdx i k 0).val = (i 0).val := by
  unfold DotDims.lhsIdx
  rw [dif_neg (show ¬(0 : Fin S512x128.rank) ∈ dot_S512x128_S128x128_S512x128_1_0_0_1_n_n.lhsBatch by decide),
    dif_pos (show (0 : Fin S512x128.rank) ∈ dot_S512x128_S128x128_S512x128_1_0_0_1_n_n.lhsNonContracting by decide)]
  rfl
theorem lhs_contr (i : S512x128.Idx) (k : dot_S512x128_S128x128_S512x128_1_0_0_1_n_n.contr.Idx) :
    (dot_S512x128_S128x128_S512x128_1_0_0_1_n_n.lhsIdx i k 1).val = (k ⟨0, by decide⟩).val :=
  dot_S512x128_S128x128_S512x128_1_0_0_1_n_n.lhsIdx_val_of_single rfl i k
theorem rhs_contr (i : S512x128.Idx) (k : dot_S512x128_S128x128_S512x128_1_0_0_1_n_n.contr.Idx) :
    (dot_S512x128_S128x128_S512x128_1_0_0_1_n_n.rhsIdx i k 0).val = (k ⟨0, by decide⟩).val :=
  dot_S512x128_S128x128_S512x128_1_0_0_1_n_n.rhsIdx_val_of_single rfl i k
theorem rhs_col (i : S512x128.Idx) (k : dot_S512x128_S128x128_S512x128_1_0_0_1_n_n.contr.Idx) :
    (dot_S512x128_S128x128_S512x128_1_0_0_1_n_n.rhsIdx i k 1).val = (i 1).val := by
  unfold DotDims.rhsIdx
  rw [dif_neg (show ¬(1 : Fin S128x128.rank) ∈ dot_S512x128_S128x128_S512x128_1_0_0_1_n_n.rhsBatch by decide),
    dif_pos (show (1 : Fin S128x128.rank) ∈ dot_S512x128_S128x128_S512x128_1_0_0_1_n_n.rhsNonContracting by decide)]
  rfl

/-- A matrix product into the zero accumulator at (p, q): row p of the left operand against column q of the right. -/
theorem mm_apply (l : FVec Ideal S512x128 .f32) (r : FVec Ideal S128x128 .f32) (p : Fin 512) (q : Fin 128) :
    matmul dot_S512x128_S128x128_S512x128_1_0_0_1_n_n none l r (constant S512x128 .f32 0x00000000#32) (ix2 p q)
      = ∑ d : Fin 128, l (ix2 p d) * r (ix2 d q) := by
  simp only [matmul]
  rw [Ideal.matmul_constant_zero_apply,
    ← Equiv.sum_comp (ValueIdx.contrEquiv1 dot_S512x128_S128x128_S512x128_1_0_0_1_n_n 128 rfl rfl).symm]
  refine Finset.sum_congr rfl fun k _ => ?_
  have hk := ValueIdx.contrEquiv1_symm_val dot_S512x128_S128x128_S512x128_1_0_0_1_n_n 128 rfl rfl k
  have el : dot_S512x128_S128x128_S512x128_1_0_0_1_n_n.lhsIdx (ix2 p q)
      ((ValueIdx.contrEquiv1 dot_S512x128_S128x128_S512x128_1_0_0_1_n_n 128 rfl rfl).symm k) = ix2 p k :=
    funext fun a => Fin.ext (by
      match a with
      | ⟨0, _⟩ => exact lhs_row _ _
      | ⟨1, _⟩ => exact (lhs_contr _ _).trans hk)
  have er : dot_S512x128_S128x128_S512x128_1_0_0_1_n_n.rhsIdx (ix2 p q)
      ((ValueIdx.contrEquiv1 dot_S512x128_S128x128_S512x128_1_0_0_1_n_n 128 rfl rfl).symm k) = ix2 k q :=
    funext fun a => Fin.ext (by
      match a with
      | ⟨0, _⟩ => exact (rhs_contr _ _).trans hk
      | ⟨1, _⟩ => exact rhs_col _ _)
  rw [el, er]

/-- The body's stored value at (p, q). -/
theorem pay_apply (x1 : FVec Ideal S64x512x128 .f32) (x0 : FVec Ideal S512x128 .f32) (x2 x3 : FVec Ideal S128x128 .f32)
    (p : Fin 512) (q : Fin 128) :
    k0_pay1 (F := Ideal) x1 x0 x2 x3 (ix2 p q) = leaky (blockLin x0 x1 x2 x3 p q) := by
  unfold k0_pay1
  have hs : ∀ d : Fin 128, multiReduction .add [0] S512x128 x1 0x00000000#32 reduces_S64x512x128_S512x128 (.inl rfl) rfl (ix2 p d)
      = blockSum x1 p d := fun d => reduce_apply x1 _ _ _ p d
  simp only [shapeCast_self, select_apply, cmpf_apply, mulf_apply, addf_apply, broadcast_apply, mm_apply, hs]
  rfl

/-- The block's pre-activation is the arrays' at the block's row: the block of e1 and of e2 are rows of the arrays, and the
    staged weights are the weight matrices transposed. -/
theorem blockLin_eq (x0 : FVec Ideal S512x128 .f32) (x1 : FVec Ideal S64x512x128 .f32) (x2 x3 : FVec Ideal S128x128 .f32)
    (e1 : (⟨2, ![8192, 128]⟩ : Shape).Idx → EReal) (e2 : (⟨3, ![64, 8192, 128]⟩ : Shape).Idx → EReal)
    (w1 w2 : (⟨2, ![128, 128]⟩ : Shape).Idx → EReal) (p : Fin 512) (q : Fin 128) (b : Fin 8192)
    (h0 : ∀ d, x0 (ix2 p d) = e1 (ix2 b d)) (h1 : ∀ n d, x1 (ix3 n p d) = e2 (ix3 n b d))
    (h2 : ∀ d, x2 (ix2 d q) = w1 (ix2 q d)) (h3 : ∀ d, x3 (ix2 d q) = w2 (ix2 q d)) :
    blockLin x0 x1 x2 x3 p q = lin e1 e2 w1 w2 b q := by
  unfold blockLin lin blockSum nbrSum
  simp only [h0, h1, h2, h3]

end Cert.KernelIdeal.Body

end
-- ==== Proof.KernelValue.lean ====
/-
  The kernel's result array, from what each grid point writes back.

  The grid has 16 points; point t holds rows 512·t … 512·t + 511 of e1 (window 0), the same rows of every slice of e2
  (window 1), and the whole transposed weight matrices (windows 2 and 3: the arrays the two host transposes wrote before
  the region), and writes back rows 512·t … 512·t + 511 of the result (window 4). What it writes is the body's stored
  value of those blocks, which at (p, q) is `Cert.Spec.G` of the argument arrays at row 512·t + p, column q; the sixteen
  row blocks cover the result array, so the array ends holding `G` of the arguments.
-/
import proofs.«124865_j81003083203131_1_alg».proof.Proof.Gen.KernelIdeal.Value
import proofs.«124865_j81003083203131_1_alg».proof.Proof.Payload
import Idealize.ShloMosaic.Lib.StableHlo.Run
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.Hand

open Cert.KernelIdeal Cert.KernelIdeal.Gen Cert.KernelIdeal.Value Cert.KernelIdeal.Body
open Idealize.ShloMosaic.ValueIdx Cert.Spec

variable (m : (ℓ : Loc nD τ sig) → Buf (Elt Ideal) ℓ) (ρ : Dev nD → PrngReg)

theorem hz2 : (![0, 0] : Fin 2 → Nat) = fun _ => 0 := funext fun a => by fin_cases a <;> rfl
theorem hz3 : (![0, 0, 0] : Fin 3 → Nat) = fun _ => 0 := funext fun a => by fin_cases a <;> rfl

/-- The block index of every window at point `t`: the row windows are at block `t` of their row axis, the weight windows
    at block 0. -/
theorem idx_facts : ∀ t : Fin cfg0.N,
    win0_0.index t (0 : Fin 2) = t.val ∧ win0_0.index t (1 : Fin 2) = 0
    ∧ win0_1.index t (0 : Fin 3) = 0 ∧ win0_1.index t (1 : Fin 3) = t.val ∧ win0_1.index t (2 : Fin 3) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0 :=
  (by decide +kernel : ∀ t : Fin grid0.N, _)

/-- The staged block of e1 at point `t`: row `p` of the block is row 512·t + p of the array. -/
theorem e1_block (c : Dev nD) (t : Fin cfg0.N) (p : Fin 512) (d : Fin 128) (b : Fin 8192) (hb : b.val = t.val * 512 + p.val) :
    (iblk m c 0 t : FVec Ideal S512x128 .f32) (ix2 p d)
      = (m ((c : Thread nD τ).loc main_arg0) : S8192x128.Idx → EReal) (ix2 b d) := by
  obtain ⟨e00, e01, -⟩ := idx_facts t
  show V m c main_arg0 (((cfg0.win 0).blk t).view.emb (ix2 p d)) = _
  rw [V_main_arg0]
  refine congrArg _ (funext fun a => Fin.ext ?_)
  match a with
  | ⟨0, _⟩ => show win0_0.index t (0 : Fin 2) * 512 + 1 * p.val = b.val; omega
  | ⟨1, _⟩ => show win0_0.index t (1 : Fin 2) * 128 + 1 * d.val = d.val; omega

/-- The staged block of e2 at point `t`: every slice, rows 512·t … of it. -/
theorem e2_block (c : Dev nD) (t : Fin cfg0.N) (n : Fin 64) (p : Fin 512) (d : Fin 128) (b : Fin 8192)
    (hb : b.val = t.val * 512 + p.val) :
    (iblk m c 1 t : FVec Ideal S64x512x128 .f32) (ix3 n p d)
      = (m ((c : Thread nD τ).loc main_arg1) : S64x8192x128.Idx → EReal) (ix3 n b d) := by
  obtain ⟨-, -, e10, e11, e12, -⟩ := idx_facts t
  show V m c main_arg1 (((cfg0.win 1).blk t).view.emb (ix3 n p d)) = _
  rw [V_main_arg1]
  refine congrArg _ (funext fun a => Fin.ext ?_)
  match a with
  | ⟨0, _⟩ => show win0_1.index t (0 : Fin 3) * 64 + 1 * n.val = n.val; omega
  | ⟨1, _⟩ => show win0_1.index t (1 : Fin 3) * 512 + 1 * p.val = b.val; omega
  | ⟨2, _⟩ => show win0_1.index t (2 : Fin 3) * 128 + 1 * d.val = d.val; omega

/-- What the region finds in the first staged weight array: W1 transposed, written by the host before the region. -/
theorem entry_w1T (c : Dev nD) : (V m c main_v0 : S128x128.Idx → EReal)
    = transpose S128x128 [1, 0] (m ((c : Thread nD τ).loc main_arg2)) transposes_S128x128_S128x128_1_0 := by
  dsimp only [Gen.V, Gen.hostOps0]; after_results

/-- … and in the second: W2 transposed. -/
theorem entry_w2T (c : Dev nD) : (V m c main_v1 : S128x128.Idx → EReal)
    = transpose S128x128 [1, 0] (m ((c : Thread nD τ).loc main_arg3)) transposes_S128x128_S128x128_1_0 := by
  dsimp only [Gen.V, Gen.hostOps0]; after_results

/-- The staged first weight block, at (d, q), is W1 at (q, d). -/
theorem w1_block (c : Dev nD) (t : Fin cfg0.N) (d q : Fin 128) :
    (iblk m c 2 t : FVec Ideal S128x128 .f32) (ix2 d q)
      = (m ((c : Thread nD τ).loc main_arg2) : S128x128.Idx → EReal) (ix2 q d) := by
  obtain ⟨-, -, -, -, -, e20, e21, -⟩ := idx_facts t
  show (V m c main_v0 : S128x128.Idx → EReal) (((cfg0.win 2).blk t).view.emb (ix2 d q)) = _
  rw [entry_w1T]
  refine transpose_apply _ _ _ _ _ fun a => ?_
  match a with
  | ⟨0, _⟩ => show d.val = win0_2.index t (0 : Fin 2) * 128 + 1 * d.val; omega
  | ⟨1, _⟩ => show q.val = win0_2.index t (1 : Fin 2) * 128 + 1 * q.val; omega

/-- The staged second weight block, at (d, q), is W2 at (q, d). -/
theorem w2_block (c : Dev nD) (t : Fin cfg0.N) (d q : Fin 128) :
    (iblk m c 3 t : FVec Ideal S128x128 .f32) (ix2 d q)
      = (m ((c : Thread nD τ).loc main_arg3) : S128x128.Idx → EReal) (ix2 q d) := by
  obtain ⟨-, -, -, -, -, -, -, e30, e31, -⟩ := idx_facts t
  show (V m c main_v1 : S128x128.Idx → EReal) (((cfg0.win 3).blk t).view.emb (ix2 d q)) = _
  rw [entry_w2T]
  refine transpose_apply _ _ _ _ _ fun a => ?_
  match a with
  | ⟨0, _⟩ => show d.val = win0_3.index t (0 : Fin 2) * 128 + 1 * d.val; omega
  | ⟨1, _⟩ => show q.val = win0_3.index t (1 : Fin 2) * 128 + 1 * q.val; omega

/-- The result as one function of the argument arrays on core `c`. -/
abbrev result (c : Dev nD) : S8192x128.Idx → EReal :=
  G (m ((c : Thread nD τ).loc main_arg0)) (m ((c : Thread nD τ).loc main_arg1))
    (m ((c : Thread nD τ).loc main_arg2)) (m ((c : Thread nD τ).loc main_arg3))

/-- What point `t` writes back is block `t` of `result`. -/
theorem flushed_eq (c : Dev nD) (t : Fin cfg0.N) :
    (dats m 0 c).flushed 4 t = ((cfg0.win 4).blk t).view.read (Elt Ideal) (result m c) := by
  show (cfg0.win 4).cut (grid0.coords t) ((dats m 0 c).after 4 t) = _
  rw [after0_4]
  unfold out0_4
  rw [View.canon_unit_zero hz2]
  simp only [View.ld_unit_zero (S := S512x128) hz2, View.ld_unit_zero (S := S64x512x128) hz3,
    View.ld_unit_zero (S := S128x128) hz2]
  funext j
  obtain ⟨p, q, rfl⟩ : ∃ (p : Fin 512) (q : Fin 128), j = ix2 p q := ⟨j 0, j 1, eq_ix2 j⟩
  obtain ⟨-, -, -, -, -, -, -, -, -, e40, e41⟩ := idx_facts t
  have hN : cfg0.N = 16 := N_0
  have hb : t.val * 512 + p.val < 8192 := by have := t.isLt; omega
  have hi : ((cfg0.win 4).blk t).view.emb (ix2 p q) = ix2 (⟨t.val * 512 + p.val, hb⟩ : Fin 8192) q := by
    funext a; apply Fin.ext
    match a with
    | ⟨0, _⟩ => show win0_4.index t (0 : Fin 2) * 512 + 1 * p.val = t.val * 512 + p.val; omega
    | ⟨1, _⟩ => show win0_4.index t (1 : Fin 2) * 128 + 1 * q.val = q.val; omega
  show k0_pay1 (F := Ideal) (iblk m c 1 t) (iblk m c 0 t) (iblk m c 2 t) (iblk m c 3 t) (ix2 p q)
    = result m c (((cfg0.win 4).blk t).view.emb (ix2 p q))
  rw [hi]
  refine (pay_apply _ _ _ _ p q).trans ?_
  show _ = leaky (lin _ _ _ _ (⟨t.val * 512 + p.val, hb⟩ : Fin 8192) q)
  exact congrArg leaky (blockLin_eq _ _ _ _ _ _ _ _ p q _
    (fun d => e1_block m c t p d _ rfl) (fun n d => e2_block m c t n p d _ rfl)
    (fun d => w1_block m c t d q) (fun d => w2_block m c t d q))

/-- An index of the result array is in point `t`'s block iff each coordinate is in the block's range on its axis. -/
theorem mem_blk (t : Fin cfg0.N) (i : S8192x128.Idx) :
    i ∈ ((cfg0.win 4).blk t).view.set
      ↔ ∀ a : Fin 2, win0_4.index t a * S512x128.size a ≤ (i a).val ∧ (i a).val < win0_4.index t a * S512x128.size a + S512x128.size a := by
  show i ∈ ((View.whole main_v2).slice (win0_4.rect t)).set ↔ _
  rw [View.set_slice_whole, Rect.mem_set_unit]
  exact Iff.rfl

/-- Row r of the result is in the block of point r / 512. -/
theorem cover (i : S8192x128.Idx) :
    ∃ t : Fin cfg0.N, (cfg0.win 4).flush t = true ∧ i ∈ ((cfg0.win 4).blk t).view.set := by
  have hi0 : (i 0).val < 8192 := (i 0).isLt
  have hi1 : (i 1).val < 128 := (i 1).isLt
  have hN : cfg0.N = 16 := N_0
  obtain ⟨t, ht⟩ : ∃ t : Fin cfg0.N, t.val = (i 0).val / 512 := ⟨⟨(i 0).val / 512, by omega⟩, rfl⟩
  obtain ⟨-, -, -, -, -, -, -, -, -, e40, e41⟩ := idx_facts t
  refine ⟨t, flush0_4 t, ?_⟩
  rw [mem_blk]
  intro a
  match a with
  | ⟨0, _⟩ =>
    show win0_4.index t (0 : Fin 2) * 512 ≤ (i 0).val ∧ (i 0).val < win0_4.index t (0 : Fin 2) * 512 + 512
    omega
  | ⟨1, _⟩ =>
    show win0_4.index t (1 : Fin 2) * 128 ≤ (i 1).val ∧ (i 1).val < win0_4.index t (1 : Fin 2) * 128 + 128
    omega

/-- The result array after the run is `result`: every point's block is a block of it, and the blocks cover the array. -/
theorem final (c : Dev nD) : (dats m 0 c).arrAt 4 cfg0.N = result m c :=
  (dats m 0 c).arrAt_eq_of_cover 4 (result m c) (fun t _ => flushed_eq m c t) cover

/-- The kernel's run, read: the result array at `G` of the argument arrays, the arguments unchanged. -/
theorem run : θ_run defs (onTc (τ := τ) (main (F := Ideal))) ⟨m, fun _ => 0, ρ⟩ fun r => ∀ c : Dev nD,
      r.2.mem ((c : Thread nD τ).loc main_v2) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c), (h c).2⟩) (run_blocks m ρ)

end Cert.KernelIdeal.Hand

end
-- ==== Proof.lean ====
/-
  The kernel and its reference compute one function on the extended reals.

  Arguments: e1 : [8192,128], e2 : [64,8192,128], W1, W2 : [128,128]. With s[b,d] = Σ_n e2[n,b,d], both programs return
      leaky( Σ_d (e1[b,d] + s[b,d]) · W1[o,d]  +  Σ_d (e1[b,d] · s[b,d]) · W2[o,d] )          at (b, o),
  the leaky rectifier taking x to x where x > 0 and to the f32 word nearest 1/100 times x elsewhere (`Cert.Spec.G`).

  The reference does this with one reduction over the leading axis of e2, two contractions of axis 1 against axis 1 of the
  weights, and a pointwise tail (`Cert.RefSpec.result_eq`, over the generated reading of its run). The kernel transposes the
  two weight matrices on the host, then runs 16 grid points; point t reduces its [64,512,128] block of e2 over the leading
  axis, forms e1 + s and e1 · s on its 512 rows, multiplies each by a transposed weight matrix into a zero accumulator,
  adds, applies the same rectifier and writes rows 512·t … 512·t + 511 of the result (`Cert.KernelIdeal.Body.pay_apply`,
  `Cert.KernelIdeal.Hand.flushed_eq`); the sixteen row blocks tile the result (`Cert.KernelIdeal.Hand.final`). The two sums
  over d run over the same index set with the same summands — a transposed matrix read at (d, o) is the matrix at (o, d) — so
  no law of the extended reals beyond the definitions is used, and the finiteness of the inputs is not needed.

  The three frames are the generated ones (the reference's is its generated run with the result dropped), and the kernel's
  idealization rewrote nothing, so there is nothing to preserve.
-/
import proofs.«124865_j81003083203131_1_alg».proof.Defs
import proofs.«124865_j81003083203131_1_alg».proof.Proof.Gen.Kernel
import proofs.«124865_j81003083203131_1_alg».proof.Proof.Gen.Kernel.Skeleton
import proofs.«124865_j81003083203131_1_alg».proof.Proof.Gen.Kernel.Launch
import proofs.«124865_j81003083203131_1_alg».proof.Proof.Gen.Kernel.Points
import proofs.«124865_j81003083203131_1_alg».proof.Proof.Gen.Kernel.Frame
import proofs.«124865_j81003083203131_1_alg».proof.Proof.Gen.KernelIdeal
import proofs.«124865_j81003083203131_1_alg».proof.Proof.Gen.KernelIdeal.Skeleton
import proofs.«124865_j81003083203131_1_alg».proof.Proof.Gen.KernelIdeal.Launch
import proofs.«124865_j81003083203131_1_alg».proof.Proof.Gen.KernelIdeal.Points
import proofs.«124865_j81003083203131_1_alg».proof.Proof.Gen.KernelIdeal.Frame
import proofs.«124865_j81003083203131_1_alg».proof.Proof.Gen.ReferenceIdeal
import proofs.«124865_j81003083203131_1_alg».proof.Proof.Gen.Pre_finite_inputs
import proofs.«124865_j81003083203131_1_alg».proof.Proof.Gen.KernelIdeal.Value
import proofs.«124865_j81003083203131_1_alg».proof.Proof.Gen.ReferenceIdeal.Run
import proofs.«124865_j81003083203131_1_alg».proof.Proof.Gen.ReferenceIdeal.Read
import proofs.«124865_j81003083203131_1_alg».proof.Proof.Spec
import proofs.«124865_j81003083203131_1_alg».proof.Proof.RefSpec
import proofs.«124865_j81003083203131_1_alg».proof.Proof.Payload
import proofs.«124865_j81003083203131_1_alg».proof.Proof.KernelValue
import Idealize.ShloMosaic.Adequacy
import Idealize.ShloMosaic.Init

noncomputable section

namespace Cert.Proof

open Idealize.ShloMosaic Idealize.ShloMosaic.TcCoe Idealize.SL.Sem

/-- The word-level kernel runs and leaves its arguments as they were. -/
theorem frame_kernel : Cert.frame_Kernel (hKernel := Cert.Kernel.Gen.facts) (hPre_finite_inputs := Cert.Pre_finite_inputs.Gen.facts) :=
  fun m ρ _ => Cert.Kernel.Gen.frame m ρ

/-- So does the idealized kernel. -/
theorem frame_kernelIdeal : Cert.frame_KernelIdeal (hKernelIdeal := Cert.KernelIdeal.Gen.facts) (hPre_finite_inputs := Cert.Pre_finite_inputs.Gen.facts) :=
  fun m ρ _ => Cert.KernelIdeal.Gen.frame m ρ

/-- The reference is a straight line of host operations: it runs, and none of them writes an argument. -/
theorem frame_referenceIdeal : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories that agree on the arguments both programs end with the result array at `G` of the arguments: the
    kernel's by its sixteen row blocks, the reference's by its operations read one at a time. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.KernelIdeal.Hand.result m c, Cert.KernelIdeal.Hand.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2.1, (hagree c).2.2.2]
  exact (Cert.ReferenceIdeal.Read.val_main_v10_eq _ _ _ _).trans (Cert.RefSpec.result_eq _ _ _ _)

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
